-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x1600000 : Shape := ⟨2, ![2, 1600000]⟩
abbrev S100000 : Shape := ⟨1, ![100000]⟩
abbrev S10x64 : Shape := ⟨2, ![10, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S32x1 .f32) (main_arg8 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x10 .f32) (main_arg1 : IVec S2x1600000 32) (main_arg2 : IVec S100000 32) (main_arg3 : FVec F S10x64 .f32) (main_arg4 : FVec F S64 .f32) (main_arg5 : FVec F S64x32 .f32) (main_arg6 : FVec F S32 .f32) (main_arg7 : FVec F S32x1 .f32) (main_arg8 : FVec F S1 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S10x64 .f32 := Host.absf main_arg3
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000x10 : Shape := ⟨2, ![100000, 10]⟩
abbrev S2x1600000 : Shape := ⟨2, ![2, 1600000]⟩
abbrev S100000 : Shape := ⟨1, ![100000]⟩
abbrev S10x64 : Shape := ⟨2, ![10, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S2000x10 : Shape := ⟨2, ![2000, 10]⟩
abbrev S2000x64 : Shape := ⟨2, ![2000, 64]⟩
abbrev S1600000x64 : Shape := ⟨2, ![1600000, 64]⟩
abbrev S100000x1 : Shape := ⟨2, ![100000, 1]⟩
abbrev S1x64 : Shape := ⟨2, ![1, 64]⟩
abbrev S2000x1 : Shape := ⟨2, ![2000, 1]⟩
abbrev S100000x32 : Shape := ⟨2, ![100000, 32]⟩
abbrev S2000x32 : Shape := ⟨2, ![2000, 32]⟩
abbrev S1600000x32 : Shape := ⟨2, ![1600000, 32]⟩
abbrev S1x32 : Shape := ⟨2, ![1, 32]⟩
abbrev S512x32 : Shape := ⟨2, ![512, 32]⟩
abbrev S1x1 : Shape := ⟨2, ![1, 1]⟩
abbrev S512x1 : Shape := ⟨2, ![512, 1]⟩

abbrev nBuf : Space → Nat
  | .hbm => 91
  | .vmem => 32
  | .smem => 0
  | _ => 0

abbrev bufTy : (tb : Table) → Fin (tcTables nBuf tb) → BufTy
  | .hbm, ⟨0, _⟩ => ⟨S100000x10, .f32⟩
  | .hbm, ⟨1, _⟩ => ⟨S2x1600000, .i32⟩
  | .hbm, ⟨2, _⟩ => ⟨S100000, .i32⟩
  | .hbm, ⟨3, _⟩ => ⟨S10x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1600000x1, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x1, .f32⟩
  | .hbm, ⟨63, _⟩ => ⟨S1x64, .f32⟩
  | .hbm, ⟨64, _⟩ => ⟨S100000x64, .f32⟩
  | .hbm, ⟨65, _⟩ => ⟨S100000x32, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x32, .f32⟩
  | .hbm, ⟨75, _⟩ => ⟨S1600000x1, .f32⟩
  | .hbm, ⟨76, _⟩ => ⟨S1600000x32, .f32⟩
  | .hbm, ⟨77, _⟩ => ⟨S1600000x32, .f32⟩
  | .hbm, ⟨78, _⟩ => ⟨S_, .f32⟩
  | .hbm, ⟨79, _⟩ => ⟨S100000x32, .f32⟩
  | .hbm, ⟨80, _⟩ => ⟨S1600000x1, .i32⟩
  | .hbm, ⟨81, _⟩ => ⟨S100000x32, .f32⟩
  | .hbm, ⟨82, _⟩ => ⟨S100000x1, .f32⟩
  | .hbm, ⟨83, _⟩ => ⟨S1x32, .f32⟩
  | .hbm, ⟨84, _⟩ => ⟨S100000x32, .f32⟩
  | .hbm, ⟨85, _⟩ => ⟨S_, .f32⟩
  | .hbm, ⟨86, _⟩ => ⟨S512x32, .f32⟩
  | .hbm, ⟨87, _⟩ => ⟨S100000x1, .i32⟩
  | .hbm, ⟨88, _⟩ => ⟨S512x32, .f32⟩
  | .hbm, ⟨89, _⟩ => ⟨S1x1, .f32⟩
  | .hbm, ⟨90, _⟩ => ⟨S512x1, .f32⟩
  | .local _ .vmem, ⟨0, _⟩ => ⟨S2000x10, .f32⟩
  | .local _ .vmem, ⟨1, _⟩ => ⟨S2000x10, .f32⟩
  | .local _ .vmem, ⟨2, _⟩ => ⟨S10x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x1, .f32⟩
  | .local _ .vmem, ⟨24, _⟩ => ⟨S2000x1, .f32⟩
  | .local _ .vmem, ⟨25, _⟩ => ⟨S1x32, .f32⟩
  | .local _ .vmem, ⟨26, _⟩ => ⟨S2000x32, .f32⟩
  | .local _ .vmem, ⟨27, _⟩ => ⟨S2000x32, .f32⟩
  | .local _ .vmem, ⟨28, _⟩ => ⟨S512x32, .f32⟩
  | .local _ .vmem, ⟨29, _⟩ => ⟨S32x1, .f32⟩
  | .local _ .vmem, ⟨30, _⟩ => ⟨S1x1, .f32⟩
  | .local _ .vmem, ⟨31, _⟩ => ⟨S512x1, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x10_S2000x10_0_0 : ∀ a, (![0, 0] : Fin 2 → Nat) a + S2000x10.size a ≤ S2000x10.size a
  h_S2000x10 : 0 < S2000x10.numel
  bitsLt_bf16_f32 : FTy.bits .bf16 < FTy.bits .f32
  inb_S10x64_S10x64_0_0 : ∀ a, (![0, 0] : Fin 2 → Nat) a + S10x64.size a ≤ S10x64.size a
  h_S10x64 : 0 < S10x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  bcast_S_S512x32 : S_.BroadcastsInDim S512x32 (![] : Fin 0 → Fin S512x32.rank)
  bcast_S100000_S100000x1_0 : S100000.BroadcastsInDim S100000x1 (![0] : Fin 1 → Fin S100000x1.rank)
  shapeCasts_S1_S1x1 : S1.ShapeCasts S1x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x10_S10x64_S2000x64_1_0_0_1_n_n_wf : DotDims.WF S2000x10 S10x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x32_S2000x32_1_0_0_1_n_n_wf : DotDims.WF S2000x64 S64x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S512x32_S100000x1_S100000x32_1_0_0_1_wf : ScatterDims.WF S512x32 S100000x1 S100000x32 [1] [0] [0] 1
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x10.size a ≤ S100000x10.size a
  hwx0_0 : ∀ i : grid0.Coords, EltTy.bits .f32 = 32 ∨ (Rect.block (s := S100000x10) S2000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x64.size a ≤ S10x64.size a
  hwx0_1 : ∀ i : grid0.Coords, EltTy.bits .f32 = 32 ∨ (Rect.block (s := S10x64) S10x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x32.size a ≤ S100000x32.size a
  hwx3_4 : ∀ i : grid3.Coords, EltTy.bits .f32 = 32 ∨ (Rect.block (s := S100000x32) S2000x32.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x32.size a ≤ S512x32.size a
  hwx4_0 : ∀ i : grid4.Coords, EltTy.bits .f32 = 32 ∨ (Rect.block (s := S512x32) S512x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x1.size a ≤ S512x1.size a
  hwx4_3 : ∀ i : grid4.Coords, EltTy.bits .f32 = 32 ∨ (Rect.block (s := S512x1) S512x1.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x10_S10x64_S2000x64_1_0_0_1_n_n : DotDims S2000x10 S10x64 S2000x64 where
  lhsContracting := [1]
  rhsContracting := [0]
  lhsNonContracting := [0]
  rhsNonContracting := [1]
  lhsBatch := []
  rhsBatch := []
  wf := dot_S2000x10_S10x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S2000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S2000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S512x32.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S512x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x10 : Shape := ⟨2, ![100000, 10]⟩
abbrev S2x1600000 : Shape := ⟨2, ![2, 1600000]⟩
abbrev S100000 : Shape := ⟨1, ![100000]⟩
abbrev S10x64 : Shape := ⟨2, ![10, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩
abbrev S512x32 : Shape := ⟨2, ![512, 32]⟩
abbrev S512x1 : Shape := ⟨2, ![512, 1]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S100000x10, .f32⟩
  | 1 => ⟨S2x1600000, .i32⟩
  | 2 => ⟨S100000, .i32⟩
  | 3 => ⟨S10x64, .f32⟩
  | 4 => ⟨S64, .f32⟩
  | 5 => ⟨S64x32, .f32⟩
  | 6 => ⟨S32, .f32⟩
  | 7 => ⟨S32x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S_, .f32⟩
  | 60 => ⟨S100000, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x32, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x32, .f32⟩
  | 111 => ⟨S1600000x1, .f32⟩
  | 112 => ⟨S1600000x32, .f32⟩
  | 113 => ⟨S1600000x32, .f32⟩
  | 114 => ⟨S_, .f32⟩
  | 115 => ⟨S100000x32, .f32⟩
  | 116 => ⟨S1600000x1, .i32⟩
  | 117 => ⟨S100000x32, .f32⟩
  | 118 => ⟨S_, .f32⟩
  | 119 => ⟨S100000, .f32⟩
  | 120 => ⟨S100000, .f32⟩
  | 121 => ⟨S100000x1, .f32⟩
  | 122 => ⟨S100000x32, .f32⟩
  | 123 => ⟨S100000x32, .f32⟩
  | 124 => ⟨S100000x32, .f32⟩
  | 125 => ⟨S1x32, .f32⟩
  | 126 => ⟨S100000x32, .f32⟩
  | 127 => ⟨S100000x32, .f32⟩
  | _ => ⟨S100000x10, .f32⟩

abbrev hbmTy0_1 (i : Nat) : BufTy := match i % 128 with
  | 0 => ⟨S_, .f32⟩
  | 1 => ⟨S100000x32, .f32⟩
  | 2 => ⟨S100000x32, .f32⟩
  | 3 => ⟨S_, .f32⟩
  | 4 => ⟨S512x32, .f32⟩
  | 5 => ⟨S100000x1, .i32⟩
  | 6 => ⟨S512x32, .f32⟩
  | 7 => ⟨S512x1, .f32⟩
  | 8 => ⟨S1x1, .f32⟩
  | 9 => ⟨S512x1, .f32⟩
  | 10 => ⟨S512x1, .f32⟩
  | 11 => ⟨S512x1, .f32⟩
  | 12 => ⟨S512x1, .f32⟩
  | 13 => ⟨S_, .f32⟩
  | 14 => ⟨S512x1, .f32⟩
  | 15 => ⟨S512x1, .f32⟩
  | 16 => ⟨S_, .f32⟩
  | 17 => ⟨S512x1, .f32⟩
  | 18 => ⟨S512x1, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call1_cst : Ref sig .tc := ⟨.hbm, 128, rfl⟩
abbrev main_call1_v0 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_21 : Ref sig .tc := ⟨.hbm, 141, rfl⟩
abbrev main_v105 : Ref sig .tc := ⟨.hbm, 142, rfl⟩
abbrev main_v106 : Ref sig .tc := ⟨.hbm, 143, rfl⟩
abbrev main_cst_22 : Ref sig .tc := ⟨.hbm, 144, rfl⟩
abbrev main_v107 : Ref sig .tc := ⟨.hbm, 145, rfl⟩
abbrev main_v108 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S512x32 : S_.BroadcastsInDim S512x32 (![] : Fin 0 → Fin S512x32.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  dot_S100000x10_S10x64_S100000x64_1_0_0_1_n_n_wf : DotDims.WF S100000x10 S10x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S512x32_S100000x1_S100000x32_1_0_0_1_wf : ScatterDims.WF S512x32 S100000x1 S100000x32 [1] [0] [0] 1
  dot_S512x32_S32x1_S512x1_1_0_0_1_n_n_wf : DotDims.WF S512x32 S32x1 S512x1 [1] [0] [0] [1] [] []

variable [Facts₀]

def dot_S100000x10_S10x64_S100000x64_1_0_0_1_n_n : DotDims S100000x10 S10x64 S100000x64 where
  lhsContracting := [1]
  rhsContracting := [0]
  lhsNonContracting := [0]
  rhsNonContracting := [1]
  lhsBatch := []
  rhsBatch := []
  wf := dot_S100000x10_S10x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

class Facts : Prop extends Facts₀ where

variable [Facts]
-- ==== Proof.NamedRun.lean ====
/-
  The kernel's run with its result buffer kept.

  The program is nine segments: four stretches of host operations and five pallas_calls. The buffer
  contents at the segment boundaries form a fold from the launch memory (`W0`, …, `W9`): a host stretch
  maps the contents through its operations, a pallas_call replaces its windows' arrays by what its
  write-backs leave. Every weakly fair execution terminates with every unscoped buffer at the last
  boundary's contents `W9`. Read at the argument buffers this is the frame; read also at the result
  buffer `main_v66` it says the result is `W9` there, which the value proof then opens boundary by
  boundary.
-/
import proofs.«141364_j26912265076901_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v66) = W9 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v66 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Named

end
-- ==== Proof.LibLayout.lean ====
/-
  Layout facts read at an index, over literal rank-2 shapes: a plain matrix product's contraction as a sum over
  the shared axis, and a column `[a, 1]` broadcast along the rows of `[a, b]`.
-/
import Idealize.ShloMosaic.PureOps.Ideal
import Idealize.ShloMosaic.PureOps.Ideal.Laws
import Idealize.ShloMosaic.Lib.ValueIdx
import Idealize.ShloMosaic.Lib.Pipeline.Value

noncomputable section

namespace Cert.Gcn

open Idealize.ShloMosaic Idealize.ShloMosaic.ValueIdx

/-- The contraction of a plain `[M, K] × [K, N]` product at `(p, q)`: the sum over the shared axis of
    `l (p, k) · r (k, q)`. -/
theorem plain_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun i _ => ?_
  have hv := contrEquiv1_symm_val (DotDims.plain M K N) K rfl rfl i
  have el : (DotDims.plain M K N).lhsIdx (ix2 p q) ((contrEquiv1 (DotDims.plain M K N) K rfl rfl).symm i) = ix2 p i := by
    funext a; refine Fin.ext ?_
    match a with
    | ⟨0, _⟩ => rfl
    | ⟨1, _⟩ => exact hv
  have er : (DotDims.plain M K N).rhsIdx (ix2 p q) ((contrEquiv1 (DotDims.plain M K N) K rfl rfl).symm i) = ix2 i q := by
    funext a; refine Fin.ext ?_
    match a with
    | ⟨0, _⟩ => exact hv
    | ⟨1, _⟩ => rfl
  rw [el, er]

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn

end
-- ==== Proof.Body.lean ====
/-
  The five kernel bodies' arithmetic, read at an index of the block, at the ideal values.

  A projection body stores the product of its row block with the whole weight matrix: entry (p, q) is the sum
  over the shared axis of x(p, k) · w(k, q) (the bf16 casts are the identity on extended reals, and the product
  accumulates into zero). A node-update body stores max(agg + h · c + b, 0), where c is a column [rows, 1]
  spread along the lanes and b a row [1, lanes] spread along the rows. The head body stores the logistic of a
  product's entry plus the one bias.
-/
import proofs.«141364_j26912265076901_1_alg».proof.Proof.Gen.KernelIdeal.Skeleton
import proofs.«141364_j26912265076901_1_alg».proof.Proof.LibLayout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The first projection's block entry: a row of the node block against a column of the weights. -/
theorem proj1_apply (x : Vec Ideal S2000x10 .f32) (w : Vec Ideal S10x64 .f32) (p : Fin 2000) (q : Fin 64) :
    k0_pay1 (F := Ideal) x w (ix2 p q) = ∑ k : Fin 10, x (ix2 p k) * w (ix2 k q) := by
  unfold k0_pay1
  refine (Ideal.matmul_constant_zero_apply dot_S2000x10_S10x64_S2000x64_1_0_0_1_n_n none _ _ (ix2 p q)).trans ?_
  exact Cert.Gcn.plain_sum (M := 2000) (K := 10) (N := 64) x w p q

/-- The second projection's block entry. -/
theorem proj2_apply (x : Vec Ideal S2000x64 .f32) (w : Vec Ideal S64x32 .f32) (p : Fin 2000) (q : Fin 32) :
    k2_pay1 (F := Ideal) x w (ix2 p q) = ∑ k : Fin 64, x (ix2 p k) * w (ix2 k q) := by
  unfold k2_pay1
  rw [shapeCast_self]
  refine (Ideal.matmul_constant_zero_apply dot_S2000x64_S64x32_S2000x32_1_0_0_1_n_n none _ _ (ix2 p q)).trans ?_
  exact Cert.Gcn.plain_sum (M := 2000) (K := 64) (N := 32) x w p q

/-- The first node update's block entry. -/
theorem upd1_apply (agg h : Vec Ideal S2000x64 .f32) (col : Vec Ideal S2000x1 .f32) (row : Vec Ideal S1x64 .f32)
    (p : Fin 2000) (q : Fin 64) :
    k1_pay1 (F := Ideal) agg h col row (ix2 p q)
      = max (agg (ix2 p q) + h (ix2 p q) * col (ix2 p (0 : Fin 1)) + row (ix2 (0 : Fin 1) q)) (Ideal.ofBits .f32 0x00000000#32) := by
  unfold k1_pay1
  rw [shapeCast_self, shapeCast_self, shapeCast_self, shapeCast_self]
  show max (agg (ix2 p q) + h (ix2 p q) * broadcastTo S2000x64 col broadcasts_S2000x1_S2000x64 (ix2 p q)
      + broadcastTo S2000x64 row broadcasts_S1x64_S2000x64 (ix2 p q)) _ = _
  rw [Cert.Gcn.broadcastTo_a1_ab_apply (a := 2000) (b := 64) col broadcasts_S2000x1_S2000x64 p q,
    broadcastTo_1b_ab_apply (a := 2000) (b := 64) row broadcasts_S1x64_S2000x64 p q]
  rfl

/-- The second node update's block entry. -/
theorem upd2_apply (agg h : Vec Ideal S2000x32 .f32) (col : Vec Ideal S2000x1 .f32) (row : Vec Ideal S1x32 .f32)
    (p : Fin 2000) (q : Fin 32) :
    k3_pay1 (F := Ideal) agg h col row (ix2 p q)
      = max (agg (ix2 p q) + h (ix2 p q) * col (ix2 p (0 : Fin 1)) + row (ix2 (0 : Fin 1) q)) (Ideal.ofBits .f32 0x00000000#32) := by
  unfold k3_pay1
  rw [shapeCast_self, shapeCast_self, shapeCast_self, shapeCast_self]
  show max (agg (ix2 p q) + h (ix2 p q) * broadcastTo S2000x32 col broadcasts_S2000x1_S2000x32 (ix2 p q)
      + broadcastTo S2000x32 row broadcasts_S1x32_S2000x32 (ix2 p q)) _ = _
  rw [Cert.Gcn.broadcastTo_a1_ab_apply (a := 2000) (b := 32) col broadcasts_S2000x1_S2000x32 p q,
    broadcastTo_1b_ab_apply (a := 2000) (b := 32) row broadcasts_S1x32_S2000x32 p q]
  rfl

/-- The head's entry: the logistic of a pooled row against the one weight column, plus the bias. -/
theorem head_apply (pooled : Vec Ideal S512x32 .f32) (w : Vec Ideal S32x1 .f32) (b : Vec Ideal S1x1 .f32)
    (p : Fin 512) (q : Fin 1) :
    k4_pay1 (F := Ideal) pooled w b (ix2 p q)
      = Ideal.logistic ((∑ k : Fin 32, pooled (ix2 p k) * w (ix2 k q)) + b (ix2 (0 : Fin 1) q)) := by
  unfold k4_pay1
  rw [shapeCast_self, shapeCast_self]
  show Ideal.logistic (matmul dot_S512x32_S32x1_S512x1_1_0_0_1_n_n none _ _ (constant (F := Ideal) S512x1 .f32 0x00000000#32) (ix2 p q)
      + broadcastTo S512x1 b broadcasts_S1x1_S512x1 (ix2 p q)) = _
  rw [broadcastTo_1b_ab_apply (a := 512) (b := 1) b broadcasts_S1x1_S512x1 p q]
  refine congrArg (fun s => Ideal.logistic (s + b (ix2 (0 : Fin 1) q))) ?_
  refine (Ideal.matmul_constant_zero_apply dot_S512x32_S32x1_S512x1_1_0_0_1_n_n none _ _ (ix2 p q)).trans ?_
  exact Cert.Gcn.plain_sum (M := 512) (K := 32) (N := 1) pooled w p q

end Cert.KernelIdeal.Body

end
-- ==== Proof.Region0.lean ====
/-
  The first projection region, from blocks to the whole array.

  The grid has fifty points; point t loads rows 2000·t … 2000·t + 1999 of the node table and the whole weight
  matrix, and writes back the same rows of the output. Each written block is the restriction of one whole-array
  function — the product of the node table with the weights — so the output array ends at that function of the
  arrays the region is entered with, whatever they are.
-/
import proofs.«141364_j26912265076901_1_alg».proof.Proof.Gen.KernelIdeal.Frame
import proofs.«141364_j26912265076901_1_alg».proof.Proof.Body

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offset of a block stored whole. -/
theorem hz : (![0, 0] : Fin 2 → Nat) = fun _ => 0 := funext fun a => by fin_cases a <;> rfl

/-- The projection of the whole node table: entry (r, c) is the sum over the shared axis of x(r, k) · w(k, c). -/
def proj1 (X : S100000x10.Idx → EReal) (W : S10x64.Idx → EReal) : S100000x64.Idx → EReal :=
  fun i => ∑ k : Fin 10, X (ix2 (i 0) k) * W (ix2 k (i 1))

/-- A block's product entry is the whole projection's entry at the block's place, when the node block reads the
    table at the output's row and the weight block reads the matrix at the output's lane. -/
theorem proj1_block (X : S100000x10.Idx → EReal) (W : S10x64.Idx → EReal)
    (xb : Vec Ideal S2000x10 .f32) (wb : Vec Ideal S10x64 .f32)
    (e0 : S2000x10.Idx → S100000x10.Idx) (e1 : S10x64.Idx → S10x64.Idx) (eo : S2000x64.Idx → S100000x64.Idx)
    (hx : ∀ y, xb y = X (e0 y)) (hw : ∀ y, wb y = W (e1 y)) (p : Fin 2000) (q : Fin 64)
    (h0 : ∀ k : Fin 10, e0 (ix2 p k) = ix2 ((eo (ix2 p q)) 0) k)
    (h1 : ∀ k : Fin 10, e1 (ix2 k q) = ix2 k ((eo (ix2 p q)) 1)) :
    k0_pay1 (F := Ideal) xb wb (ix2 p q) = proj1 X W (eo (ix2 p q)) := by
  refine (Body.proj1_apply xb wb p q).trans ?_
  unfold proj1
  refine Finset.sum_congr rfl fun k _ => ?_
  rw [hx, hw, h0 k, h1 k] <;> rfl

/-- Point t's node block is rows 2000·t … 2000·t + 1999, the weight block is the whole matrix, and the output
    block sits at the same rows. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole projection of the arrays the region is entered with. -/
theorem flushed0 (c : Dev nD) (t : Fin cfg0.N) :
    (dat0 (F := Ideal) V c).flushed 2 t
      = ((cfg0.win 2).blk t).view.read (Elt Ideal) (proj1 (V c main_arg0) (V c main_arg3)) := by
  show (cfg0.win 2).cut (grid0.coords t) ((dat0 V c).after 2 t) = _
  rw [after0_2]
  unfold out0_2
  rw [View.canon_unit_zero hz]
  simp only [View.ld_unit_zero (S := S2000x10) hz, View.ld_unit_zero (S := S10x64) hz]
  obtain ⟨e0, e1, e2, e3, e4, e5⟩ := idx0 t
  funext j
  obtain ⟨p, q, rfl⟩ : ∃ (p : Fin 2000) (q : Fin 64), j = ix2 p q := ⟨j 0, j 1, eq_ix2 j⟩
  have h0 : ∀ k : Fin 10, ((cfg0.win 0).blk t).view.emb (ix2 p k) = ix2 ((((cfg0.win 2).blk t).view.emb (ix2 p q)) 0) k := by
    intro k; funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 10 + 1 * k.val = k.val; omega
  have h1 : ∀ k : Fin 10, ((cfg0.win 1).blk t).view.emb (ix2 k q) = ix2 k ((((cfg0.win 2).blk t).view.emb (ix2 p q)) 1) := by
    intro k; funext a; apply Fin.ext
    match a with
    | ⟨0, _⟩ => show win0_1.index t (0 : Fin 2) * 10 + 1 * k.val = k.val; omega
    | ⟨1, _⟩ => show win0_1.index t (1 : Fin 2) * 64 + 1 * q.val = win0_2.index t (1 : Fin 2) * 64 + 1 * q.val; omega
  exact proj1_block (V c main_arg0) (V c main_arg3) (iblk0 V c 0 t) (iblk0 V c 1 t)
    ((cfg0.win 0).blk t).view.emb ((cfg0.win 1).blk t).view.emb ((cfg0.win 2).blk t).view.emb
    (fun _ => rfl) (fun _ => rfl) p q h0 h1

/-- An index of the output array is in point t's block iff each coordinate is in the block's range. -/
theorem mem_blk0 (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v28).slice (win0_2.rect t)).set ↔ _
  rw [View.set_slice_whole, Rect.mem_set_unit]
  exact Iff.rfl

/-- Row r of the output lies in the block of point r / 2000: the fifty blocks tile the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 2000 < cfg0.N := lt_of_lt_of_eq (by omega : (i 0).val / 2000 < 50) N_0.symm
  obtain ⟨-, -, -, -, e4, e5⟩ := idx0 ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_blk0]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 64 ≤ (i 1).val
      ∧ (i 1).val < win0_2.index ⟨(i 0).val / 2000, hlt⟩ (1 : Fin 2) * 64 + 64
    omega

/-- The output array after the region is the whole projection of the arrays the region is entered with. -/
theorem final0 (c : Dev nD) :
    (dat0 (F := Ideal) V c).arrAt 2 cfg0.N = proj1 (V c main_arg0) (V c main_arg3) :=
  (dat0 V c).arrAt_eq_of_cover 2 _ (fun t _ => flushed0 V c t) cover0

end Cert.KernelIdeal.Regions

end
-- ==== Proof.Region1.lean ====
/-
  The first node-update region, from blocks to the whole array.

  Point t loads rows 2000·t … 2000·t + 1999 of the aggregated table, of the projected table and of the
  inverse-degree column, and the whole bias row, and writes back the same rows of the output. Each written block
  is the restriction of one whole-array function, max(agg + h · col + row, 0), of the arrays the region is entered
  with.
-/
import proofs.«141364_j26912265076901_1_alg».proof.Proof.Gen.KernelIdeal.Frame
import proofs.«141364_j26912265076901_1_alg».proof.Proof.Body
import proofs.«141364_j26912265076901_1_alg».proof.Proof.Region0

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The node update of the whole table: entry (r, c) is max(agg + h · col(r) + row(c), 0), the column [rows, 1]
    read at its row and the row [1, lanes] read at its lane. -/
def upd1 (agg h : S100000x64.Idx → EReal) (col : S100000x1.Idx → EReal) (row : S1x64.Idx → EReal) : S100000x64.Idx → EReal :=
  fun i => max (agg i + h i * col (ix2 (i 0) (0 : Fin 1)) + row (ix2 (0 : Fin 1) (i 1))) (Ideal.ofBits .f32 0x00000000#32)

/-- A block's update entry is the whole update's entry at the block's place, when each block reads its array
    where the output's block sits. -/
theorem upd1_block (agg h : S100000x64.Idx → EReal) (col : S100000x1.Idx → EReal) (row : S1x64.Idx → EReal)
    (ab hb : Vec Ideal S2000x64 .f32) (cb : Vec Ideal S2000x1 .f32) (rb : Vec Ideal S1x64 .f32)
    (e0 e1 : S2000x64.Idx → S100000x64.Idx) (e2 : S2000x1.Idx → S100000x1.Idx) (e3 : S1x64.Idx → S1x64.Idx) (eo : S2000x64.Idx → S100000x64.Idx)
    (ha : ∀ y, ab y = agg (e0 y)) (hh : ∀ y, hb y = h (e1 y)) (hc : ∀ y, cb y = col (e2 y)) (hr : ∀ y, rb y = row (e3 y))
    (p : Fin 2000) (q : Fin 64)
    (h0 : e0 (ix2 p q) = eo (ix2 p q)) (h1 : e1 (ix2 p q) = eo (ix2 p q))
    (h2 : e2 (ix2 p (0 : Fin 1)) = ix2 ((eo (ix2 p q)) 0) (0 : Fin 1))
    (h3 : e3 (ix2 (0 : Fin 1) q) = ix2 (0 : Fin 1) ((eo (ix2 p q)) 1)) :
    k1_pay1 (F := Ideal) ab hb cb rb (ix2 p q) = upd1 agg h col row (eo (ix2 p q)) := by
  refine (Body.upd1_apply ab hb cb rb p q).trans ?_
  unfold upd1
  rw [ha, hh, hc, hr, h0, h1, h2, h3] <;> rfl

/-- Point t's blocks of the two tables, of the column and of the output are rows 2000·t … 2000·t + 1999; the
    bias row's block is the whole row. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the whole node update of the arrays the region is entered with. -/
theorem flushed1 (c : Dev nD) (t : Fin cfg1.N) :
    (dat1 (F := Ideal) V c).flushed 4 t
      = ((cfg1.win 4).blk t).view.read (Elt Ideal) (upd1 (V c main_v41) (V c main_v28) (V c main_v42) (V c main_v43)) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz, View.ld_unit_zero (S := S1x64) hz]
  obtain ⟨a0, a1, b0, b1, c0, c1, d0, d1, o0, o1⟩ := idx1 t
  funext j
  obtain ⟨p, q, rfl⟩ : ∃ (p : Fin 2000) (q : Fin 64), j = ix2 p q := ⟨j 0, j 1, eq_ix2 j⟩
  have h0 : ((cfg1.win 0).blk t).view.emb (ix2 p q) = ((cfg1.win 4).blk t).view.emb (ix2 p q) := by
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1)) = ix2 ((((cfg1.win 4).blk t).view.emb (ix2 p q)) 0) (0 : Fin 1) := by
    funext a; apply Fin.ext
    match a with
    | ⟨0, _⟩ => show win1_2.index t (0 : Fin 2) * 2000 + 1 * p.val = win1_4.index t (0 : Fin 2) * 2000 + 1 * p.val; omega
    | ⟨1, _⟩ => show win1_2.index t (1 : Fin 2) * 1 + 1 * 0 = 0; omega
  have h3 : ((cfg1.win 3).blk t).view.emb (ix2 (0 : Fin 1) q) = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  exact upd1_block (V c main_v41) (V c main_v28) (V c main_v42) (V c main_v43)
    (iblk1 V c 0 t) (iblk1 V c 1 t) (iblk1 V c 2 t) (iblk1 V c 3 t)
    ((cfg1.win 0).blk t).view.emb ((cfg1.win 1).blk t).view.emb ((cfg1.win 2).blk t).view.emb
    ((cfg1.win 3).blk t).view.emb ((cfg1.win 4).blk t).view.emb
    (fun _ => rfl) (fun _ => rfl) (fun _ => rfl) (fun _ => rfl) p q h0 h1 h2 h3

/-- An index of the output array is in point t's block iff each coordinate is in the block's range. -/
theorem mem_blk1 (t : Fin cfg1.N) (i : S100000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v44).slice (win1_4.rect t)).set ↔ _
  rw [View.set_slice_whole, Rect.mem_set_unit]
  exact Iff.rfl

/-- Row r of the output lies in the block of point r / 2000: the fifty blocks tile the array. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hlt : (i 0).val / 2000 < cfg1.N := lt_of_lt_of_eq (by omega : (i 0).val / 2000 < 50) N_1.symm
  obtain ⟨-, -, -, -, -, -, -, -, e4, e5⟩ := idx1 ⟨(i 0).val / 2000, hlt⟩
  have e4' : win1_4.index ⟨(i 0).val / 2000, hlt⟩ (0 : Fin 2) = (i 0).val / 2000 := e4
  refine ⟨⟨(i 0).val / 2000, hlt⟩, flush1_4 _, ?_⟩
  rw [mem_blk1]
  intro a
  match a with
  | ⟨0, _⟩ =>
    show win1_4.index ⟨(i 0).val / 2000, hlt⟩ (0 : Fin 2) * 2000 ≤ (i 0).val
      ∧ (i 0).val < win1_4.index ⟨(i 0).val / 2000, hlt⟩ (0 : Fin 2) * 2000 + 2000
    omega
  | ⟨1, _⟩ =>
    show win1_4.index ⟨(i 0).val / 2000, hlt⟩ (1 : Fin 2) * 64 ≤ (i 1).val
      ∧ (i 1).val < win1_4.index ⟨(i 0).val / 2000, hlt⟩ (1 : Fin 2) * 64 + 64
    omega

/-- The output array after the region is the whole node update of the arrays the region is entered with. -/
theorem final1 (c : Dev nD) :
    (dat1 (F := Ideal) V c).arrAt 4 cfg1.N = upd1 (V c main_v41) (V c main_v28) (V c main_v42) (V c main_v43) :=
  (dat1 V c).arrAt_eq_of_cover 4 _ (fun t _ => flushed1 V c t) cover1

end Cert.KernelIdeal.Regions

end
-- ==== Proof.Region2.lean ====
/-
  The second projection region, from blocks to the whole array: the same road as the first, with the updated
  node table [100000, 64] against the second weight matrix [64, 32].
-/
import proofs.«141364_j26912265076901_1_alg».proof.Proof.Gen.KernelIdeal.Frame
import proofs.«141364_j26912265076901_1_alg».proof.Proof.Body
import proofs.«141364_j26912265076901_1_alg».proof.Proof.Region0

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The projection of the whole node table: entry (r, c) is the sum over the shared axis of x(r, k) · w(k, c). -/
def proj2 (X : S100000x64.Idx → EReal) (W : S64x32.Idx → EReal) : S100000x32.Idx → EReal :=
  fun i => ∑ k : Fin 64, X (ix2 (i 0) k) * W (ix2 k (i 1))

/-- A block's product entry is the whole projection's entry at the block's place, when the node block reads the
    table at the output's row and the weight block reads the matrix at the output's lane. -/
theorem proj2_block (X : S100000x64.Idx → EReal) (W : S64x32.Idx → EReal)
    (xb : Vec Ideal S2000x64 .f32) (wb : Vec Ideal S64x32 .f32)
    (e0 : S2000x64.Idx → S100000x64.Idx) (e1 : S64x32.Idx → S64x32.Idx) (eo : S2000x32.Idx → S100000x32.Idx)
    (hx : ∀ y, xb y = X (e0 y)) (hw : ∀ y, wb y = W (e1 y)) (p : Fin 2000) (q : Fin 32)
    (h0 : ∀ k : Fin 64, e0 (ix2 p k) = ix2 ((eo (ix2 p q)) 0) k)
    (h1 : ∀ k : Fin 64, e1 (ix2 k q) = ix2 k ((eo (ix2 p q)) 1)) :
    k2_pay1 (F := Ideal) xb wb (ix2 p q) = proj2 X W (eo (ix2 p q)) := by
  refine (Body.proj2_apply xb wb p q).trans ?_
  unfold proj2
  refine Finset.sum_congr rfl fun k _ => ?_
  rw [hx, hw, h0 k, h1 k] <;> rfl

/-- Point t's node block is rows 2000·t … 2000·t + 1999, the weight block is the whole matrix, and the output
    block sits at the same rows. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole projection of the arrays the region is entered with. -/
theorem flushed2 (c : Dev nD) (t : Fin cfg2.N) :
    (dat2 (F := Ideal) V c).flushed 2 t
      = ((cfg2.win 2).blk t).view.read (Elt Ideal) (proj2 (V c main_v44) (V c main_arg5)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x32) hz]
  obtain ⟨e0, e1, e2, e3, e4, e5⟩ := idx2 t
  funext j
  obtain ⟨p, q, rfl⟩ : ∃ (p : Fin 2000) (q : Fin 32), j = ix2 p q := ⟨j 0, j 1, eq_ix2 j⟩
  have h0 : ∀ k : Fin 64, ((cfg2.win 0).blk t).view.emb (ix2 p k) = ix2 ((((cfg2.win 2).blk t).view.emb (ix2 p q)) 0) k := by
    intro k; funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * k.val = k.val; omega
  have h1 : ∀ k : Fin 64, ((cfg2.win 1).blk t).view.emb (ix2 k q) = ix2 k ((((cfg2.win 2).blk t).view.emb (ix2 p q)) 1) := by
    intro k; funext a; apply Fin.ext
    match a with
    | ⟨0, _⟩ => show win2_1.index t (0 : Fin 2) * 64 + 1 * k.val = k.val; omega
    | ⟨1, _⟩ => show win2_1.index t (1 : Fin 2) * 32 + 1 * q.val = win2_2.index t (1 : Fin 2) * 32 + 1 * q.val; omega
  exact proj2_block (V c main_v44) (V c main_arg5) (iblk2 V c 0 t) (iblk2 V c 1 t)
    ((cfg2.win 0).blk t).view.emb ((cfg2.win 1).blk t).view.emb ((cfg2.win 2).blk t).view.emb
    (fun _ => rfl) (fun _ => rfl) p q h0 h1

/-- An index of the output array is in point t's block iff each coordinate is in the block's range. -/
theorem mem_blk2 (t : Fin cfg2.N) (i : S100000x32.Idx) :
    i ∈ ((cfg2.win 2).blk t).view.set ↔ ∀ a : Fin 2, win2_2.index t a * S2000x32.size a ≤ (i a).val
      ∧ (i a).val < win2_2.index t a * S2000x32.size a + S2000x32.size a := by
  show i ∈ ((View.whole main_v45).slice (win2_2.rect t)).set ↔ _
  rw [View.set_slice_whole, Rect.mem_set_unit]
  exact Iff.rfl

/-- Row r of the output lies in the block of point r / 2000: the fifty blocks tile the array. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hlt : (i 0).val / 2000 < cfg2.N := lt_of_lt_of_eq (by omega : (i 0).val / 2000 < 50) N_2.symm
  obtain ⟨-, -, -, -, e4, e5⟩ := idx2 ⟨(i 0).val / 2000, hlt⟩
  have e4' : win2_2.index ⟨(i 0).val / 2000, hlt⟩ (0 : Fin 2) = (i 0).val / 2000 := e4
  refine ⟨⟨(i 0).val / 2000, hlt⟩, flush2_2 _, ?_⟩
  rw [mem_blk2]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    omega
  | ⟨1, _⟩ =>
    show win2_2.index ⟨(i 0).val / 2000, hlt⟩ (1 : Fin 2) * 32 ≤ (i 1).val
      ∧ (i 1).val < win2_2.index ⟨(i 0).val / 2000, hlt⟩ (1 : Fin 2) * 32 + 32
    omega

/-- The output array after the region is the whole projection of the arrays the region is entered with. -/
theorem final2 (c : Dev nD) :
    (dat2 (F := Ideal) V c).arrAt 2 cfg2.N = proj2 (V c main_v44) (V c main_arg5) :=
  (dat2 V c).arrAt_eq_of_cover 2 _ (fun t _ => flushed2 V c t) cover2

end Cert.KernelIdeal.Regions

end
-- ==== Proof.Region3.lean ====
/-
  The second node-update region, from blocks to the whole array: the same road as the first, over 32 lanes.
-/
import proofs.«141364_j26912265076901_1_alg».proof.Proof.Gen.KernelIdeal.Frame
import proofs.«141364_j26912265076901_1_alg».proof.Proof.Body
import proofs.«141364_j26912265076901_1_alg».proof.Proof.Region0

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The node update of the whole table: entry (r, c) is max(agg + h · col(r) + row(c), 0), the column [rows, 1]
    read at its row and the row [1, lanes] read at its lane. -/
def upd2 (agg h : S100000x32.Idx → EReal) (col : S100000x1.Idx → EReal) (row : S1x32.Idx → EReal) : S100000x32.Idx → EReal :=
  fun i => max (agg i + h i * col (ix2 (i 0) (0 : Fin 1)) + row (ix2 (0 : Fin 1) (i 1))) (Ideal.ofBits .f32 0x00000000#32)

/-- A block's update entry is the whole update's entry at the block's place, when each block reads its array
    where the output's block sits. -/
theorem upd2_block (agg h : S100000x32.Idx → EReal) (col : S100000x1.Idx → EReal) (row : S1x32.Idx → EReal)
    (ab hb : Vec Ideal S2000x32 .f32) (cb : Vec Ideal S2000x1 .f32) (rb : Vec Ideal S1x32 .f32)
    (e0 e1 : S2000x32.Idx → S100000x32.Idx) (e2 : S2000x1.Idx → S100000x1.Idx) (e3 : S1x32.Idx → S1x32.Idx) (eo : S2000x32.Idx → S100000x32.Idx)
    (ha : ∀ y, ab y = agg (e0 y)) (hh : ∀ y, hb y = h (e1 y)) (hc : ∀ y, cb y = col (e2 y)) (hr : ∀ y, rb y = row (e3 y))
    (p : Fin 2000) (q : Fin 32)
    (h0 : e0 (ix2 p q) = eo (ix2 p q)) (h1 : e1 (ix2 p q) = eo (ix2 p q))
    (h2 : e2 (ix2 p (0 : Fin 1)) = ix2 ((eo (ix2 p q)) 0) (0 : Fin 1))
    (h3 : e3 (ix2 (0 : Fin 1) q) = ix2 (0 : Fin 1) ((eo (ix2 p q)) 1)) :
    k3_pay1 (F := Ideal) ab hb cb rb (ix2 p q) = upd2 agg h col row (eo (ix2 p q)) := by
  refine (Body.upd2_apply ab hb cb rb p q).trans ?_
  unfold upd2
  rw [ha, hh, hc, hr, h0, h1, h2, h3] <;> rfl

/-- Point t's blocks of the two tables, of the column and of the output are rows 2000·t … 2000·t + 1999; the
    bias row's block is the whole row. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the whole node update of the arrays the region is entered with. -/
theorem flushed3 (c : Dev nD) (t : Fin cfg3.N) :
    (dat3 (F := Ideal) V c).flushed 4 t
      = ((cfg3.win 4).blk t).view.read (Elt Ideal) (upd2 (V c main_v58) (V c main_v45) (V c main_v59) (V c main_v60)) := by
  show (cfg3.win 4).cut (grid3.coords t) ((dat3 V c).after 4 t) = _
  rw [after3_4]
  unfold out3_4
  rw [View.canon_unit_zero hz]
  simp only [View.ld_unit_zero (S := S2000x32) hz, View.ld_unit_zero (S := S2000x1) hz, View.ld_unit_zero (S := S1x32) hz]
  obtain ⟨a0, a1, b0, b1, c0, c1, d0, d1, o0, o1⟩ := idx3 t
  funext j
  obtain ⟨p, q, rfl⟩ : ∃ (p : Fin 2000) (q : Fin 32), j = ix2 p q := ⟨j 0, j 1, eq_ix2 j⟩
  have h0 : ((cfg3.win 0).blk t).view.emb (ix2 p q) = ((cfg3.win 4).blk t).view.emb (ix2 p q) := by
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 32 + 1 * q.val = win3_4.index t (1 : Fin 2) * 32 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 32 + 1 * q.val = win3_4.index t (1 : Fin 2) * 32 + 1 * q.val; omega
  have h2 : ((cfg3.win 2).blk t).view.emb (ix2 p (0 : Fin 1)) = ix2 ((((cfg3.win 4).blk t).view.emb (ix2 p q)) 0) (0 : Fin 1) := by
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  have h3 : ((cfg3.win 3).blk t).view.emb (ix2 (0 : Fin 1) q) = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 32 + 1 * q.val = win3_4.index t (1 : Fin 2) * 32 + 1 * q.val; omega
  exact upd2_block (V c main_v58) (V c main_v45) (V c main_v59) (V c main_v60)
    (iblk3 V c 0 t) (iblk3 V c 1 t) (iblk3 V c 2 t) (iblk3 V c 3 t)
    ((cfg3.win 0).blk t).view.emb ((cfg3.win 1).blk t).view.emb ((cfg3.win 2).blk t).view.emb
    ((cfg3.win 3).blk t).view.emb ((cfg3.win 4).blk t).view.emb
    (fun _ => rfl) (fun _ => rfl) (fun _ => rfl) (fun _ => rfl) p q h0 h1 h2 h3

/-- An index of the output array is in point t's block iff each coordinate is in the block's range. -/
theorem mem_blk3 (t : Fin cfg3.N) (i : S100000x32.Idx) :
    i ∈ ((cfg3.win 4).blk t).view.set ↔ ∀ a : Fin 2, win3_4.index t a * S2000x32.size a ≤ (i a).val
      ∧ (i a).val < win3_4.index t a * S2000x32.size a + S2000x32.size a := by
  show i ∈ ((View.whole main_v61).slice (win3_4.rect t)).set ↔ _
  rw [View.set_slice_whole, Rect.mem_set_unit]
  exact Iff.rfl

/-- Row r of the output lies in the block of point r / 2000: the fifty blocks tile the array. -/
theorem cover3 (i : S100000x32.Idx) : ∃ t : Fin cfg3.N, (cfg3.win 4).flush t = true ∧ i ∈ ((cfg3.win 4).blk t).view.set := by
  have hi0 : (i 0).val < 100000 := (i 0).isLt
  have hi1 : (i 1).val < 32 := (i 1).isLt
  have hlt : (i 0).val / 2000 < cfg3.N := lt_of_lt_of_eq (by omega : (i 0).val / 2000 < 50) N_3.symm
  obtain ⟨-, -, -, -, -, -, -, -, e4, e5⟩ := idx3 ⟨(i 0).val / 2000, hlt⟩
  have e4' : win3_4.index ⟨(i 0).val / 2000, hlt⟩ (0 : Fin 2) = (i 0).val / 2000 := e4
  refine ⟨⟨(i 0).val / 2000, hlt⟩, flush3_4 _, ?_⟩
  rw [mem_blk3]
  intro a
  match a with
  | ⟨0, _⟩ =>
    show win3_4.index ⟨(i 0).val / 2000, hlt⟩ (0 : Fin 2) * 2000 ≤ (i 0).val
      ∧ (i 0).val < win3_4.index ⟨(i 0).val / 2000, hlt⟩ (0 : Fin 2) * 2000 + 2000
    omega
  | ⟨1, _⟩ =>
    show win3_4.index ⟨(i 0).val / 2000, hlt⟩ (1 : Fin 2) * 32 ≤ (i 1).val
      ∧ (i 1).val < win3_4.index ⟨(i 0).val / 2000, hlt⟩ (1 : Fin 2) * 32 + 32
    omega

/-- The output array after the region is the whole node update of the arrays the region is entered with. -/
theorem final3 (c : Dev nD) :
    (dat3 (F := Ideal) V c).arrAt 4 cfg3.N = upd2 (V c main_v58) (V c main_v45) (V c main_v59) (V c main_v60) :=
  (dat3 V c).arrAt_eq_of_cover 4 _ (fun t _ => flushed3 V c t) cover3

end Cert.KernelIdeal.Regions

end
-- ==== Proof.Region4.lean ====
/-
  The head region, from its one block to the whole array.

  The grid is a single point whose blocks are the whole pooled table, the whole weight column and the one bias;
  what it writes back is the whole output: the logistic of each pooled row against the weight column plus the
  bias, as a function of the arrays the region is entered with.
-/
import proofs.«141364_j26912265076901_1_alg».proof.Proof.Gen.KernelIdeal.Frame
import proofs.«141364_j26912265076901_1_alg».proof.Proof.Body
import proofs.«141364_j26912265076901_1_alg».proof.Proof.Region0

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The head on the whole pooled table: entry (g, 0) is the logistic of the pooled row against the one weight
    column, plus the bias. -/
def head (Pl : S512x32.Idx → EReal) (W : S32x1.Idx → EReal) (b : S1x1.Idx → EReal) : S512x1.Idx → EReal :=
  fun i => Ideal.logistic ((∑ k : Fin 32, Pl (ix2 (i 0) k) * W (ix2 k (i 1))) + b (ix2 (0 : Fin 1) (i 1)))

/-- The block's head entry is the whole head's entry at the block's place, when each block reads its array where
    the output's block sits. -/
theorem head_block (Pl : S512x32.Idx → EReal) (W : S32x1.Idx → EReal) (b : S1x1.Idx → EReal)
    (pb : Vec Ideal S512x32 .f32) (wb : Vec Ideal S32x1 .f32) (bb : Vec Ideal S1x1 .f32)
    (e0 : S512x32.Idx → S512x32.Idx) (e1 : S32x1.Idx → S32x1.Idx) (e2 : S1x1.Idx → S1x1.Idx) (eo : S512x1.Idx → S512x1.Idx)
    (hp : ∀ y, pb y = Pl (e0 y)) (hw : ∀ y, wb y = W (e1 y)) (hb : ∀ y, bb y = b (e2 y)) (p : Fin 512) (q : Fin 1)
    (h0 : ∀ k : Fin 32, e0 (ix2 p k) = ix2 ((eo (ix2 p q)) 0) k)
    (h1 : ∀ k : Fin 32, e1 (ix2 k q) = ix2 k ((eo (ix2 p q)) 1))
    (h2 : e2 (ix2 (0 : Fin 1) q) = ix2 (0 : Fin 1) ((eo (ix2 p q)) 1)) :
    k4_pay1 (F := Ideal) pb wb bb (ix2 p q) = head Pl W b (eo (ix2 p q)) := by
  refine (Body.head_apply pb wb bb p q).trans ?_
  unfold head
  rw [hb, h2]
  refine congrArg (fun s => Ideal.logistic (s + b (ix2 (0 : Fin 1) ((eo (ix2 p q)) 1)))) ?_
  refine Finset.sum_congr rfl fun k _ => ?_
  rw [hp, hw, h0 k, h1 k] <;> rfl

/-- The grid is one point and every block is its whole array. -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the one point writes back is the whole head of the arrays the region is entered with. -/
theorem flushed4 (c : Dev nD) (t : Fin cfg4.N) :
    (dat4 (F := Ideal) V c).flushed 3 t
      = ((cfg4.win 3).blk t).view.read (Elt Ideal) (head (V c main_v64) (V c main_arg7) (V c main_v65)) := by
  show (cfg4.win 3).cut (grid4.coords t) ((dat4 V c).after 3 t) = _
  rw [after4_3]
  unfold out4_3
  rw [View.canon_unit_zero hz]
  simp only [View.ld_unit_zero (S := S512x32) hz, View.ld_unit_zero (S := S32x1) hz, View.ld_unit_zero (S := S1x1) hz]
  obtain ⟨a0, a1, b0, b1, c0, c1, o0, o1⟩ := idx4 t
  funext j
  obtain ⟨p, q, rfl⟩ : ∃ (p : Fin 512) (q : Fin 1), j = ix2 p q := ⟨j 0, j 1, eq_ix2 j⟩
  have h0 : ∀ k : Fin 32, ((cfg4.win 0).blk t).view.emb (ix2 p k) = ix2 ((((cfg4.win 3).blk t).view.emb (ix2 p q)) 0) k := by
    intro k; funext a; apply Fin.ext
    match a with
    | ⟨0, _⟩ => show win4_0.index t (0 : Fin 2) * 512 + 1 * p.val = win4_3.index t (0 : Fin 2) * 512 + 1 * p.val; omega
    | ⟨1, _⟩ => show win4_0.index t (1 : Fin 2) * 32 + 1 * k.val = k.val; omega
  have h1 : ∀ k : Fin 32, ((cfg4.win 1).blk t).view.emb (ix2 k q) = ix2 k ((((cfg4.win 3).blk t).view.emb (ix2 p q)) 1) := by
    intro k; funext a; apply Fin.ext
    match a with
    | ⟨0, _⟩ => show win4_1.index t (0 : Fin 2) * 32 + 1 * k.val = k.val; omega
    | ⟨1, _⟩ => show win4_1.index t (1 : Fin 2) * 1 + 1 * q.val = win4_3.index t (1 : Fin 2) * 1 + 1 * q.val; omega
  have h2 : ((cfg4.win 2).blk t).view.emb (ix2 (0 : Fin 1) q) = ix2 (0 : Fin 1) ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 1 + 1 * q.val = win4_3.index t (1 : Fin 2) * 1 + 1 * q.val; omega
  exact head_block (V c main_v64) (V c main_arg7) (V c main_v65) (iblk4 V c 0 t) (iblk4 V c 1 t) (iblk4 V c 2 t)
    ((cfg4.win 0).blk t).view.emb ((cfg4.win 1).blk t).view.emb ((cfg4.win 2).blk t).view.emb ((cfg4.win 3).blk t).view.emb
    (fun _ => rfl) (fun _ => rfl) (fun _ => rfl) p q h0 h1 h2

/-- An index of the output array is in the point's block iff each coordinate is in the block's range. -/
theorem mem_blk4 (t : Fin cfg4.N) (i : S512x1.Idx) :
    i ∈ ((cfg4.win 3).blk t).view.set ↔ ∀ a : Fin 2, win4_3.index t a * S512x1.size a ≤ (i a).val
      ∧ (i a).val < win4_3.index t a * S512x1.size a + S512x1.size a := by
  show i ∈ ((View.whole main_v66).slice (win4_3.rect t)).set ↔ _
  rw [View.set_slice_whole, Rect.mem_set_unit]
  exact Iff.rfl

/-- The one block is the whole output. -/
theorem cover4 (i : S512x1.Idx) : ∃ t : Fin cfg4.N, (cfg4.win 3).flush t = true ∧ i ∈ ((cfg4.win 3).blk t).view.set := by
  have hi0 : (i 0).val < 512 := (i 0).isLt
  have hi1 : (i 1).val < 1 := (i 1).isLt
  have hlt : 0 < cfg4.N := lt_of_lt_of_eq (by omega : 0 < 1) N_4.symm
  obtain ⟨-, -, -, -, -, -, e4, e5⟩ := idx4 ⟨0, hlt⟩
  refine ⟨⟨0, hlt⟩, flush4_3 _, ?_⟩
  rw [mem_blk4]
  intro a
  match a with
  | ⟨0, _⟩ =>
    show win4_3.index ⟨0, hlt⟩ (0 : Fin 2) * 512 ≤ (i 0).val ∧ (i 0).val < win4_3.index ⟨0, hlt⟩ (0 : Fin 2) * 512 + 512
    omega
  | ⟨1, _⟩ =>
    show win4_3.index ⟨0, hlt⟩ (1 : Fin 2) * 1 ≤ (i 1).val ∧ (i 1).val < win4_3.index ⟨0, hlt⟩ (1 : Fin 2) * 1 + 1
    omega

/-- The output array after the region is the whole head of the arrays the region is entered with. -/
theorem final4 (c : Dev nD) :
    (dat4 (F := Ideal) V c).arrAt 3 cfg4.N = head (V c main_v64) (V c main_arg7) (V c main_v65) :=
  (dat4 V c).arrAt_eq_of_cover 3 _ (fun t _ => flushed4 V c t) cover4

end Cert.KernelIdeal.Regions

end
-- ==== Proof.Bridge.lean ====
/-
  The whole-array functions the five regions compute are the reference's stages.

  The reference computes each stage with one host operation over the whole table: a product of the node table
  with a weight matrix is, entry by entry, the same sum over the shared axis that a row block computes; its
  node update spreads the inverse degree [n] to a column [n, 1] and along the lanes, and the bias [lanes] to a row
  and along the rows, where the kernel is handed the column and the row already cast — both read the inverse
  degree at the entry's row and the bias at its lane; its logistic is spelt 1 / (1 + exp(−x)), which is the
  logistic on every extended real.
-/
import proofs.«141364_j26912265076901_1_alg».proof.Proof.Region1
import proofs.«141364_j26912265076901_1_alg».proof.Proof.Region2
import proofs.«141364_j26912265076901_1_alg».proof.Proof.Region3
import proofs.«141364_j26912265076901_1_alg».proof.Proof.Region4
import proofs.«141364_j26912265076901_1_alg».proof.Proof.Gen.ReferenceIdeal.Read
import Idealize.ShloMosaic.Lib.ValueLayout

set_option maxRecDepth 16384

noncomputable section

namespace Cert.KernelIdeal.Bridge

open Cert.KernelIdeal Cert.KernelIdeal.Gen Idealize.ShloMosaic Idealize.ShloMosaic.ValueIdx
open Cert.ReferenceIdeal.Read

/-- The word of 1.0 denotes the real 1. -/
theorem one_word : Ideal.ofBits .f32 0x3F800000#32 = 1 := by
  simp [Ideal.ofBits, Ideal.ieee, -EReal.coe_mul]; norm_num

/-- The logistic is the reference's spelling of it, 1 / (1 + exp(−x)) with the two ones as words, on every
    extended real. -/
theorem logistic_spelt (x : Ideal .f32) :
    Ideal.logistic x = FloatOps.hostDivf (F := Ideal) (φ := .f32) (FloatOps.ofBits .f32 0x3F800000#32)
      (FloatOps.addf (FloatOps.ofBits .f32 0x3F800000#32) (FloatOps.hostUnary .exp (FloatOps.hostNegf x))) := by
  show Ideal.logistic x = Ideal.div (Ideal.ofBits .f32 0x3F800000#32) (Ideal.ofBits .f32 0x3F800000#32 + Ideal.exp (-x))
  rw [one_word]
  rfl

/-- The first projection is the reference's first product. -/
theorem proj1_ref (x0 : (⟨Cert.ReferenceIdeal.S100000x10, .f32⟩ : BufTy).Contents (Elt Ideal)) (x3 : (⟨Cert.ReferenceIdeal.S10x64, .f32⟩ : BufTy).Contents (Elt Ideal)) :
    Regions.proj1 x0 x3 = val_main_v4 (F := Ideal) x0 x3 := by
  funext i
  rw [val_main_v4_apply]
  unfold Regions.proj1
  refine Finset.sum_congr rfl fun k _ => ?_
  have el : lidx_main_v4 i k = ix2 (i 0) k := funext fun a => by match a with | ⟨0, _⟩ => rfl | ⟨1, _⟩ => rfl
  have er : ridx_main_v4 i k = ix2 k (i 1) := funext fun a => by match a with | ⟨0, _⟩ => rfl | ⟨1, _⟩ => rfl
  rw [el, er] <;> rfl

/-- The first node update, handed the reference's aggregate, product, inverse degree (as a column) and bias (as
    a row), is the reference's first rectified layer. -/
theorem upd1_ref (x0 : (⟨Cert.ReferenceIdeal.S100000x10, .f32⟩ : BufTy).Contents (Elt Ideal)) (x1 : (⟨Cert.ReferenceIdeal.S2x1600000, .i32⟩ : BufTy).Contents (Elt Ideal)) (x3 : (⟨Cert.ReferenceIdeal.S10x64, .f32⟩ : BufTy).Contents (Elt Ideal)) (x4 : (⟨Cert.ReferenceIdeal.S64, .f32⟩ : BufTy).Contents (Elt Ideal)) :
    Regions.upd1 (val_main_v39 (F := Ideal) x0 x1 x3) (val_main_v4 (F := Ideal) x0 x3)
      (shapeCast S100000x1 (val_main_v41 (F := Ideal) x1) shapeCasts_S100000_S100000x1)
      (shapeCast S1x64 x4 shapeCasts_S64_S1x64)
      = val_main_v49 (F := Ideal) x0 x1 x3 x4 := by
  funext i
  rw [val_main_v49_apply, val_main_v48_apply, val_main_v45_apply, val_main_v44_apply, val_main_v43_apply,
    val_main_v42_apply, val_main_v47_apply, val_main_v46_apply, val_main_call0_v0_apply, val_main_call0_cst_apply]
  have e1 : idx_main_v42 (idx_main_v43 i) = ix1 (i 0) := funext fun a => by match a with | ⟨0, _⟩ => rfl
  have e2 : idx_main_v46 (idx_main_v47 i) = ix1 (i 1) := funext fun a => by match a with | ⟨0, _⟩ => rfl
  rw [e1, e2]
  unfold Regions.upd1
  rw [Cert.Gcn.shapeCast_a_a1_apply (a := 100000) (val_main_v41 (F := Ideal) x1) shapeCasts_S100000_S100000x1 (i 0) (0 : Fin 1),
    shapeCast_a_1a_apply (a := 64) x4 shapeCasts_S64_S1x64 (0 : Fin 1) (i 1)]
  rfl

/-- The second projection, handed the reference's first rectified layer, is the reference's second product. -/
theorem proj2_ref (x0 : (⟨Cert.ReferenceIdeal.S100000x10, .f32⟩ : BufTy).Contents (Elt Ideal)) (x1 : (⟨Cert.ReferenceIdeal.S2x1600000, .i32⟩ : BufTy).Contents (Elt Ideal)) (x3 : (⟨Cert.ReferenceIdeal.S10x64, .f32⟩ : BufTy).Contents (Elt Ideal)) (x4 : (⟨Cert.ReferenceIdeal.S64, .f32⟩ : BufTy).Contents (Elt Ideal))
    (x5 : (⟨Cert.ReferenceIdeal.S64x32, .f32⟩ : BufTy).Contents (Elt Ideal)) :
    Regions.proj2 (val_main_v49 (F := Ideal) x0 x1 x3 x4) x5 = val_main_v50 (F := Ideal) x0 x1 x3 x4 x5 := by
  funext i
  rw [val_main_v50_apply]
  unfold Regions.proj2
  refine Finset.sum_congr rfl fun k _ => ?_
  have el : lidx_main_v50 i k = ix2 (i 0) k := funext fun a => by match a with | ⟨0, _⟩ => rfl | ⟨1, _⟩ => rfl
  have er : ridx_main_v50 i k = ix2 k (i 1) := funext fun a => by match a with | ⟨0, _⟩ => rfl | ⟨1, _⟩ => rfl
  rw [el, er] <;> rfl

/-- The second node update is the reference's second rectified layer. -/
theorem upd2_ref (x0 : (⟨Cert.ReferenceIdeal.S100000x10, .f32⟩ : BufTy).Contents (Elt Ideal)) (x1 : (⟨Cert.ReferenceIdeal.S2x1600000, .i32⟩ : BufTy).Contents (Elt Ideal)) (x3 : (⟨Cert.ReferenceIdeal.S10x64, .f32⟩ : BufTy).Contents (Elt Ideal)) (x4 : (⟨Cert.ReferenceIdeal.S64, .f32⟩ : BufTy).Contents (Elt Ideal))
    (x5 : (⟨Cert.ReferenceIdeal.S64x32, .f32⟩ : BufTy).Contents (Elt Ideal)) (x6 : (⟨Cert.ReferenceIdeal.S32, .f32⟩ : BufTy).Contents (Elt Ideal)) :
    Regions.upd2 (val_main_v85 (F := Ideal) x0 x1 x3 x4 x5) (val_main_v50 (F := Ideal) x0 x1 x3 x4 x5)
      (shapeCast S100000x1 (val_main_v87 (F := Ideal) x1) shapeCasts_S100000_S100000x1)
      (shapeCast S1x32 x6 shapeCasts_S32_S1x32)
      = val_main_v95 (F := Ideal) x0 x1 x3 x4 x5 x6 := by
  funext i
  rw [val_main_v95_apply, val_main_v94_apply, val_main_v91_apply, val_main_v90_apply, val_main_v89_apply,
    val_main_v88_apply, val_main_v93_apply, val_main_v92_apply, val_main_call1_v0_apply, val_main_call1_cst_apply]
  have e1 : idx_main_v88 (idx_main_v89 i) = ix1 (i 0) := funext fun a => by match a with | ⟨0, _⟩ => rfl
  have e2 : idx_main_v92 (idx_main_v93 i) = ix1 (i 1) := funext fun a => by match a with | ⟨0, _⟩ => rfl
  rw [e1, e2]
  unfold Regions.upd2
  rw [Cert.Gcn.shapeCast_a_a1_apply (a := 100000) (val_main_v87 (F := Ideal) x1) shapeCasts_S100000_S100000x1 (i 0) (0 : Fin 1),
    shapeCast_a_1a_apply (a := 32) x6 shapeCasts_S32_S1x32 (0 : Fin 1) (i 1)]
  rfl

/-- The head, handed the reference's pooled table and the bias as a [1, 1] array, is the reference's result. -/
theorem head_ref (x0 : (⟨Cert.ReferenceIdeal.S100000x10, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S10x64, .f32⟩ : BufTy).Contents (Elt Ideal))
    (x4 : (⟨Cert.ReferenceIdeal.S64, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) (x7 : (⟨Cert.ReferenceIdeal.S32x1, .f32⟩ : BufTy).Contents (Elt Ideal)) (x8 : (⟨Cert.ReferenceIdeal.S1, .f32⟩ : BufTy).Contents (Elt Ideal)) :
    Regions.head (val_main_v98 (F := Ideal) x0 x1 x2 x3 x4 x5 x6) x7 (shapeCast S1x1 x8 shapeCasts_S1_S1x1)
      = val_main_v108 (F := Ideal) x0 x1 x2 x3 x4 x5 x6 x7 x8 := by
  funext i
  rw [val_main_v108_apply, val_main_v107_apply, val_main_cst_22_apply, val_main_v106_apply, val_main_v105_apply,
    val_main_cst_21_apply, val_main_v104_apply, val_main_v103_apply, val_main_v102_apply, val_main_v99_apply,
    val_main_v101_apply, val_main_v100_apply]
  have e2 : idx_main_v100 (idx_main_v101 i) = ix1 (i 1) := funext fun a => by
    match a with
    | ⟨0, _⟩ =>
      apply Fin.ext
      have h1 : (i 1).val < 1 := (i 1).isLt
      show (0 : Nat) = (i 1).val
      omega
  rw [e2]
  unfold Regions.head
  rw [shapeCast_a_1a_apply (a := 1) x8 shapeCasts_S1_S1x1 (0 : Fin 1) (i 1)]
  have es : (∑ k : Fin 32, val_main_v98 (F := Ideal) x0 x1 x2 x3 x4 x5 x6 (lidx_main_v99 i k) * x7 (ridx_main_v99 i k))
      = ∑ k : Fin 32, val_main_v98 (F := Ideal) x0 x1 x2 x3 x4 x5 x6 (ix2 (i 0) k) * x7 (ix2 k (i 1)) := by
    refine Finset.sum_congr rfl fun k _ => ?_
    have el : lidx_main_v99 i k = ix2 (i 0) k := funext fun a => by match a with | ⟨0, _⟩ => rfl | ⟨1, _⟩ => rfl
    have er : ridx_main_v99 i k = ix2 k (i 1) := funext fun a => by match a with | ⟨0, _⟩ => rfl | ⟨1, _⟩ => rfl
    rw [el, er] <;> rfl
  rw [es]
  exact logistic_spelt _

end Cert.KernelIdeal.Bridge

end
-- ==== Proof.Chain.lean ====
/-
  The kernel's result, boundary by boundary.

  The buffer contents at the nine segment boundaries are opened in program order. A host stretch's results are its
  operations applied to the contents before it; they are the same operations, on the same operands, as the
  reference's, so each is the reference's stage once its operands are. A region's output array is the
  whole-array function of its entry contents, which is the reference's stage by the bridge lemmas. Buffers that no
  segment writes — the arguments, the two index rows, the per-edge weight, the inverse degree — keep the value
  they got from the first stretch.
-/
import proofs.«141364_j26912265076901_1_alg».proof.Proof.Bridge
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem
open Cert.ReferenceIdeal.Read

variable (m : (ℓ : Loc nD τ sig) → Buf (Elt Ideal) ℓ) (ρ : Dev nD → PrngReg) (c : Dev nD)

/-! ## Buffers written by the first stretch only, carried to where they are read -/

theorem w1_arg0 : W1 m ρ c (Proc.devRef .tc main_arg0) = (m ((c : Thread nD τ).loc main_arg0)) := by
  show StableHlo.after hostOps0 (W0 m ρ c) (Proc.devRef .tc main_arg0) = _
  after_results_simp <;> rfl
theorem w1_arg3 : W1 m ρ c (Proc.devRef .tc main_arg3) = (m ((c : Thread nD τ).loc main_arg3)) := by
  show StableHlo.after hostOps0 (W0 m ρ c) (Proc.devRef .tc main_arg3) = _
  after_results_simp <;> rfl
theorem w1_arg2 : W1 m ρ c (Proc.devRef .tc main_arg2) = (m ((c : Thread nD τ).loc main_arg2)) := by
  show StableHlo.after hostOps0 (W0 m ρ c) (Proc.devRef .tc main_arg2) = _
  after_results_simp <;> rfl
theorem w1_arg4 : W1 m ρ c (Proc.devRef .tc main_arg4) = (m ((c : Thread nD τ).loc main_arg4)) := by
  show StableHlo.after hostOps0 (W0 m ρ c) (Proc.devRef .tc main_arg4) = _
  after_results_simp <;> rfl
theorem w1_arg5 : W1 m ρ c (Proc.devRef .tc main_arg5) = (m ((c : Thread nD τ).loc main_arg5)) := by
  show StableHlo.after hostOps0 (W0 m ρ c) (Proc.devRef .tc main_arg5) = _
  after_results_simp <;> rfl
theorem w1_arg6 : W1 m ρ c (Proc.devRef .tc main_arg6) = (m ((c : Thread nD τ).loc main_arg6)) := by
  show StableHlo.after hostOps0 (W0 m ρ c) (Proc.devRef .tc main_arg6) = _
  after_results_simp <;> rfl
theorem w1_arg7 : W1 m ρ c (Proc.devRef .tc main_arg7) = (m ((c : Thread nD τ).loc main_arg7)) := by
  show StableHlo.after hostOps0 (W0 m ρ c) (Proc.devRef .tc main_arg7) = _
  after_results_simp <;> rfl
theorem w1_arg8 : W1 m ρ c (Proc.devRef .tc main_arg8) = (m ((c : Thread nD τ).loc main_arg8)) := by
  show StableHlo.after hostOps0 (W0 m ρ c) (Proc.devRef .tc main_arg8) = _
  after_results_simp <;> rfl
theorem w1_v1 : W1 m ρ c (Proc.devRef .tc main_v1) = (val_main_v1 (F := Ideal) (m ((c : Thread nD τ).loc main_arg1))) := by
  show StableHlo.after hostOps0 (W0 m ρ c) (Proc.devRef .tc main_v1) = _
  after_results_simp <;> rfl
theorem w1_v3 : W1 m ρ c (Proc.devRef .tc main_v3) = (val_main_v3 (F := Ideal) (m ((c : Thread nD τ).loc main_arg1))) := by
  show StableHlo.after hostOps0 (W0 m ρ c) (Proc.devRef .tc main_v3) = _
  after_results_simp <;> rfl
theorem w1_v25 : W1 m ρ c (Proc.devRef .tc main_v25) = (val_main_v26 (F := Ideal) (m ((c : Thread nD τ).loc main_arg1))) := by
  show StableHlo.after hostOps0 (W0 m ρ c) (Proc.devRef .tc main_v25) = _
  after_results_simp <;> rfl
theorem w1_v27 : W1 m ρ c (Proc.devRef .tc main_v27) = (val_main_v41 (F := Ideal) (m ((c : Thread nD τ).loc main_arg1))) := by
  show StableHlo.after hostOps0 (W0 m ρ c) (Proc.devRef .tc main_v27) = _
  after_results_simp <;> rfl
theorem w2_v1 : W2 m ρ c (Proc.devRef .tc main_v1) = (val_main_v1 (F := Ideal) (m ((c : Thread nD τ).loc main_arg1))) :=
  (W2_of_ne m ρ c main_v1 (by decide)).trans (w1_v1 m ρ c)
theorem w2_v3 : W2 m ρ c (Proc.devRef .tc main_v3) = (val_main_v3 (F := Ideal) (m ((c : Thread nD τ).loc main_arg1))) :=
  (W2_of_ne m ρ c main_v3 (by decide)).trans (w1_v3 m ρ c)
theorem w2_v25 : W2 m ρ c (Proc.devRef .tc main_v25) = (val_main_v26 (F := Ideal) (m ((c : Thread nD τ).loc main_arg1))) :=
  (W2_of_ne m ρ c main_v25 (by decide)).trans (w1_v25 m ρ c)
theorem w2_v27 : W2 m ρ c (Proc.devRef .tc main_v27) = (val_main_v41 (F := Ideal) (m ((c : Thread nD τ).loc main_arg1))) :=
  (W2_of_ne m ρ c main_v27 (by decide)).trans (w1_v27 m ρ c)
theorem w2_arg2 : W2 m ρ c (Proc.devRef .tc main_arg2) = (m ((c : Thread nD τ).loc main_arg2)) :=
  (W2_of_ne m ρ c main_arg2 (by decide)).trans (w1_arg2 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w3_v1 : W3 m ρ c (Proc.devRef .tc main_v1) = (val_main_v1 (F := Ideal) (m ((c : Thread nD τ).loc main_arg1))) := by
  show StableHlo.after hostOps1 (W2 m ρ c) (Proc.devRef .tc main_v1) = _
  after_results_simp
  exact w2_v1 m ρ c
theorem w3_v3 : W3 m ρ c (Proc.devRef .tc main_v3) = (val_main_v3 (F := Ideal) (m ((c : Thread nD τ).loc main_arg1))) := by
  show StableHlo.after hostOps1 (W2 m ρ c) (Proc.devRef .tc main_v3) = _
  after_results_simp
  exact w2_v3 m ρ c
theorem w3_v25 : W3 m ρ c (Proc.devRef .tc main_v25) = (val_main_v26 (F := Ideal) (m ((c : Thread nD τ).loc main_arg1))) := by
  show StableHlo.after hostOps1 (W2 m ρ c) (Proc.devRef .tc main_v25) = _
  after_results_simp
  exact w2_v25 m ρ c
theorem w3_v27 : W3 m ρ c (Proc.devRef .tc main_v27) = (val_main_v41 (F := Ideal) (m ((c : Thread nD τ).loc main_arg1))) := by
  show StableHlo.after hostOps1 (W2 m ρ c) (Proc.devRef .tc main_v27) = _
  after_results_simp
  exact w2_v27 m ρ c
theorem w3_arg2 : W3 m ρ c (Proc.devRef .tc main_arg2) = (m ((c : Thread nD τ).loc main_arg2)) := by
  show StableHlo.after hostOps1 (W2 m ρ c) (Proc.devRef .tc main_arg2) = _
  after_results_simp
  exact w2_arg2 m ρ c
theorem w3_arg5 : W3 m ρ c (Proc.devRef .tc main_arg5) = (m ((c : Thread nD τ).loc main_arg5)) := by
  show StableHlo.after hostOps1 (W2 m ρ c) (Proc.devRef .tc main_arg5) = _
  after_results_simp
  exact w2_arg5 m ρ c
theorem w3_arg6 : W3 m ρ c (Proc.devRef .tc main_arg6) = (m ((c : Thread nD τ).loc main_arg6)) := by
  show StableHlo.after hostOps1 (W2 m ρ c) (Proc.devRef .tc main_arg6) = _
  after_results_simp
  exact w2_arg6 m ρ c
theorem w3_arg7 : W3 m ρ c (Proc.devRef .tc main_arg7) = (m ((c : Thread nD τ).loc main_arg7)) := by
  show StableHlo.after hostOps1 (W2 m ρ c) (Proc.devRef .tc main_arg7) = _
  after_results_simp
  exact w2_arg7 m ρ c
theorem w3_arg8 : W3 m ρ c (Proc.devRef .tc main_arg8) = (m ((c : Thread nD τ).loc main_arg8)) := by
  show StableHlo.after hostOps1 (W2 m ρ c) (Proc.devRef .tc main_arg8) = _
  after_results_simp
  exact w2_arg8 m ρ c
theorem w4_v1 : W4 m ρ c (Proc.devRef .tc main_v1) = (val_main_v1 (F := Ideal) (m ((c : Thread nD τ).loc main_arg1))) :=
  (W4_of_ne m ρ c main_v1 (by decide)).trans (w3_v1 m ρ c)
theorem w4_v3 : W4 m ρ c (Proc.devRef .tc main_v3) = (val_main_v3 (F := Ideal) (m ((c : Thread nD τ).loc main_arg1))) :=
  (W4_of_ne m ρ c main_v3 (by decide)).trans (w3_v3 m ρ c)
theorem w4_v25 : W4 m ρ c (Proc.devRef .tc main_v25) = (val_main_v26 (F := Ideal) (m ((c : Thread nD τ).loc main_arg1))) :=
  (W4_of_ne m ρ c main_v25 (by decide)).trans (w3_v25 m ρ c)
theorem w4_v27 : W4 m ρ c (Proc.devRef .tc main_v27) = (val_main_v41 (F := Ideal) (m ((c : Thread nD τ).loc main_arg1))) :=
  (W4_of_ne m ρ c main_v27 (by decide)).trans (w3_v27 m ρ c)
theorem w4_arg2 : W4 m ρ c (Proc.devRef .tc main_arg2) = (m ((c : Thread nD τ).loc main_arg2)) :=
  (W4_of_ne m ρ c main_arg2 (by decide)).trans (w3_arg2 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w5_v1 : W5 m ρ c (Proc.devRef .tc main_v1) = (val_main_v1 (F := Ideal) (m ((c : Thread nD τ).loc main_arg1))) :=
  (W5_of_ne m ρ c main_v1 (by decide)).trans (w4_v1 m ρ c)
theorem w5_v3 : W5 m ρ c (Proc.devRef .tc main_v3) = (val_main_v3 (F := Ideal) (m ((c : Thread nD τ).loc main_arg1))) :=
  (W5_of_ne m ρ c main_v3 (by decide)).trans (w4_v3 m ρ c)
theorem w5_v25 : W5 m ρ c (Proc.devRef .tc main_v25) = (val_main_v26 (F := Ideal) (m ((c : Thread nD τ).loc main_arg1))) :=
  (W5_of_ne m ρ c main_v25 (by decide)).trans (w4_v25 m ρ c)
theorem w5_v27 : W5 m ρ c (Proc.devRef .tc main_v27) = (val_main_v41 (F := Ideal) (m ((c : Thread nD τ).loc main_arg1))) :=
  (W5_of_ne m ρ c main_v27 (by decide)).trans (w4_v27 m ρ c)
theorem w5_arg2 : W5 m ρ c (Proc.devRef .tc main_arg2) = (m ((c : Thread nD τ).loc main_arg2)) :=
  (W5_of_ne m ρ c main_arg2 (by decide)).trans (w4_arg2 m ρ c)
theorem w5_arg6 : W5 m ρ c (Proc.devRef .tc main_arg6) = (m ((c : Thread nD τ).loc main_arg6)) :=
  (W5_of_ne m ρ c main_arg6 (by decide)).trans (w4_arg6 m ρ c)
theorem w5_arg7 : W5 m ρ c (Proc.devRef .tc main_arg7) = (m ((c : Thread nD τ).loc main_arg7)) :=
  (W5_of_ne m ρ c main_arg7 (by decide)).trans (w4_arg7 m ρ c)
theorem w5_arg8 : W5 m ρ c (Proc.devRef .tc main_arg8) = (m ((c : Thread nD τ).loc main_arg8)) :=
  (W5_of_ne m ρ c main_arg8 (by decide)).trans (w4_arg8 m ρ c)
theorem w6_arg2 : W6 m ρ c (Proc.devRef .tc main_arg2) = (m ((c : Thread nD τ).loc main_arg2)) := by
  show StableHlo.after hostOps3 (W5 m ρ c) (Proc.devRef .tc main_arg2) = _
  after_results_simp
  exact w5_arg2 m ρ c
theorem w6_arg7 : W6 m ρ c (Proc.devRef .tc main_arg7) = (m ((c : Thread nD τ).loc main_arg7)) := by
  show StableHlo.after hostOps3 (W5 m ρ c) (Proc.devRef .tc main_arg7) = _
  after_results_simp
  exact w5_arg7 m ρ c
theorem w6_arg8 : W6 m ρ c (Proc.devRef .tc main_arg8) = (m ((c : Thread nD τ).loc main_arg8)) := by
  show StableHlo.after hostOps3 (W5 m ρ c) (Proc.devRef .tc main_arg8) = _
  after_results_simp
  exact w5_arg8 m ρ c
theorem w7_arg2 : W7 m ρ c (Proc.devRef .tc main_arg2) = (m ((c : Thread nD τ).loc main_arg2)) :=
  (W7_of_ne m ρ c main_arg2 (by decide)).trans (w6_arg2 m ρ c)
theorem w7_arg7 : W7 m ρ c (Proc.devRef .tc main_arg7) = (m ((c : Thread nD τ).loc main_arg7)) :=
  (W7_of_ne m ρ c main_arg7 (by decide)).trans (w6_arg7 m ρ c)
theorem w7_arg8 : W7 m ρ c (Proc.devRef .tc main_arg8) = (m ((c : Thread nD τ).loc main_arg8)) :=
  (W7_of_ne m ρ c main_arg8 (by decide)).trans (w6_arg8 m ρ c)
theorem w8_arg7 : W8 m ρ c (Proc.devRef .tc main_arg7) = (m ((c : Thread nD τ).loc main_arg7)) := by
  show StableHlo.after hostOps4 (W7 m ρ c) (Proc.devRef .tc main_arg7) = _
  after_results_simp
  exact w7_arg7 m ρ c

/-! ## The stages -/

/-- The first projection's output is the reference's first product. -/
theorem h1_eq : W2 m ρ c (Proc.devRef .tc main_v28) = val_main_v4 (F := Ideal) (m ((c : Thread nD τ).loc main_arg0)) (m ((c : Thread nD τ).loc main_arg3)) := by
  refine (W2_arr m ρ c 2).trans ?_
  refine (Regions.final0 (V1 m ρ) c).trans ?_
  show Regions.proj1 (W1 m ρ c (Proc.devRef .tc main_arg0)) (W1 m ρ c (Proc.devRef .tc main_arg3)) = _
  rw [w1_arg0, w1_arg3]
  exact Bridge.proj1_ref _ _

/-- The first aggregate: the same gather, weighting and scatter-add as the reference's, on the same operands. -/
theorem agg1_eq : W3 m ρ c (Proc.devRef .tc main_v41) = val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v41) = _
  after_results_simp
  rw [h1_eq, w2_v1, w2_v3, w2_v25]
  rfl

theorem w3_v28 : W3 m ρ c (Proc.devRef .tc main_v28) = val_main_v4 (F := Ideal) (m ((c : Thread nD τ).loc main_arg0)) (m ((c : Thread nD τ).loc main_arg3)) := by
  show StableHlo.after hostOps1 (W2 m ρ c) (Proc.devRef .tc main_v28) = _
  after_results_simp
  exact h1_eq m ρ c

theorem w3_v42 : W3 m ρ c (Proc.devRef .tc main_v42) = shapeCast S100000x1 (val_main_v41 (F := Ideal) (m ((c : Thread nD τ).loc main_arg1))) shapeCasts_S100000_S100000x1 := by
  show StableHlo.after hostOps1 (W2 m ρ c) (Proc.devRef .tc main_v42) = _
  after_results_simp
  rw [w2_v27]
  rfl

theorem w3_v43 : W3 m ρ c (Proc.devRef .tc main_v43) = shapeCast S1x64 (m ((c : Thread nD τ).loc main_arg4)) shapeCasts_S64_S1x64 := by
  show StableHlo.after hostOps1 (W2 m ρ c) (Proc.devRef .tc main_v43) = _
  after_results_simp
  rw [w2_arg4]
  rfl

/-- The first node update's output is the reference's first rectified layer. -/
theorem out1_eq : W4 m ρ c (Proc.devRef .tc main_v44) = val_main_v49 (F := Ideal) (m ((c : Thread nD τ).loc main_arg0)) (m ((c : Thread nD τ).loc main_arg1)) (m ((c : Thread nD τ).loc main_arg3)) (m ((c : Thread nD τ).loc main_arg4)) := by
  refine (W4_arr m ρ c 4).trans ?_
  refine (Regions.final1 (V3 m ρ) c).trans ?_
  show Regions.upd1 (W3 m ρ c (Proc.devRef .tc main_v41)) (W3 m ρ c (Proc.devRef .tc main_v28)) (W3 m ρ c (Proc.devRef .tc main_v42)) (W3 m ρ c (Proc.devRef .tc main_v43)) = _
  rw [agg1_eq, w3_v28, w3_v42, w3_v43]
  exact Bridge.upd1_ref _ _ _ _

/-- The second projection's output is the reference's second product. -/
theorem h2_eq : W5 m ρ c (Proc.devRef .tc main_v45) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ?_
  refine (Regions.final2 (V4 m ρ) c).trans ?_
  show Regions.proj2 (W4 m ρ c (Proc.devRef .tc main_v44)) (W4 m ρ c (Proc.devRef .tc main_arg5)) = _
  rw [out1_eq, w4_arg5]
  exact Bridge.proj2_ref _ _ _ _ _

/-- The second aggregate. The reference computes the degree, its inverse square root and the per-edge weight a
    second time, by the same operations on the same index rows. -/
theorem agg2_eq : W6 m ρ c (Proc.devRef .tc main_v58) = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v58) = _
  after_results_simp
  rw [h2_eq, w5_v1, w5_v3, w5_v25]
  rfl

theorem w6_v45 : W6 m ρ c (Proc.devRef .tc main_v45) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v45) = _
  after_results_simp
  exact h2_eq m ρ c

theorem w6_v59 : W6 m ρ c (Proc.devRef .tc main_v59) = shapeCast S100000x1 (val_main_v87 (F := Ideal) (m ((c : Thread nD τ).loc main_arg1))) shapeCasts_S100000_S100000x1 := by
  show StableHlo.after hostOps3 (W5 m ρ c) (Proc.devRef .tc main_v59) = _
  after_results_simp
  rw [w5_v27]
  rfl

theorem w6_v60 : W6 m ρ c (Proc.devRef .tc main_v60) = shapeCast S1x32 (m ((c : Thread nD τ).loc main_arg6)) shapeCasts_S32_S1x32 := by
  show StableHlo.after hostOps3 (W5 m ρ c) (Proc.devRef .tc main_v60) = _
  after_results_simp
  rw [w5_arg6]
  rfl

/-- The second node update's output is the reference's second rectified layer. -/
theorem out2_eq : W7 m ρ c (Proc.devRef .tc main_v61) = val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 4).trans ?_
  refine (Regions.final3 (V6 m ρ) c).trans ?_
  show Regions.upd2 (W6 m ρ c (Proc.devRef .tc main_v58)) (W6 m ρ c (Proc.devRef .tc main_v45)) (W6 m ρ c (Proc.devRef .tc main_v59)) (W6 m ρ c (Proc.devRef .tc main_v60)) = _
  rw [agg2_eq, w6_v45, w6_v59, w6_v60]
  exact Bridge.upd2_ref _ _ _ _ _ _

/-- The pooled table: the same scatter-add by graph id as the reference's. -/
theorem pooled_eq : W8 m ρ c (Proc.devRef .tc main_v64) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W7 m ρ c) (Proc.devRef .tc main_v64) = _
  after_results_simp
  rw [out2_eq, w7_arg2]
  rfl

theorem w8_v65 : W8 m ρ c (Proc.devRef .tc main_v65) = shapeCast S1x1 (m ((c : Thread nD τ).loc main_arg8)) shapeCasts_S1_S1x1 := by
  show StableHlo.after hostOps4 (W7 m ρ c) (Proc.devRef .tc main_v65) = _
  after_results_simp
  rw [w7_arg8]
  rfl

/-- The result buffer at the last boundary is the reference's result, as a function of the nine arguments. -/
theorem result_eq : W9 m ρ c (Proc.devRef .tc main_v66) = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ?_
  refine (Regions.final4 (V8 m ρ) c).trans ?_
  show Regions.head (W8 m ρ c (Proc.devRef .tc main_v64)) (W8 m ρ c (Proc.devRef .tc main_arg7)) (W8 m ρ c (Proc.devRef .tc main_v65)) = _
  rw [pooled_eq, w8_arg7, w8_v65]
  exact Bridge.head_ref _ _ _ _ _ _ _ _ _

end Cert.KernelIdeal.Chain

end
-- ==== Proof.Result.lean ====
/-
  The kernel's run with its result read: every weakly fair execution of the idealized kernel terminates with the
  result buffer at the reference's result term of the nine argument arrays, and the arguments as launched.
-/
import proofs.«141364_j26912265076901_1_alg».proof.Proof.NamedRun
import proofs.«141364_j26912265076901_1_alg».proof.Proof.Chain

noncomputable section

namespace Cert.KernelIdeal.Result

open Cert.KernelIdeal Cert.KernelIdeal.Gen Idealize.ShloMosaic Idealize.ShloMosaic.TcCoe
open Idealize.SL.Sem
open Cert.ReferenceIdeal.Read

/-- The run named by the last boundary's contents, with the result buffer's contents there opened. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v66)
        = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (Chain.result_eq m ρ c), (h c).2⟩) (Named.run_named m ρ)

end Cert.KernelIdeal.Result

end
-- ==== Proof.lean ====
/-
  Two graph-convolution layers, a pooling by graph id and a logistic head: the Pallas kernel against its jnp
  reference, at the ideal values.

  Both programs compute, for a node table x, edge rows (src, dst) and graph ids:
    deg = 1 + (number of edges into each node),  norm(e) = deg(src e)^(-1/2) · deg(dst e)^(-1/2),
    layer(h, W, b) = max( scatter_add_dst( (h W)[src] · norm ) + (h W) · (1 / deg) + b, 0 ),
    out = logistic( scatter_add_graph( layer(layer(x, W1, b1), W2, b2) ) Wfc + bfc ).
  The kernel runs the two products h W, the two updates max(agg + hW · (1/deg) + b, 0) and the head as five
  pallas_calls — the first four over fifty blocks of 2000 rows — and leaves the gathers and scatter-adds to host
  operations; the reference is host operations throughout. On extended reals a change of float format is the
  identity, a row block's product entry is the whole product's entry (one sum over the shared axis, in either
  program), the update is pointwise, the host operations around the calls are literally the reference's, and the
  logistic is 1 / (1 + exp(−x)) on every extended real. So the two results are one function of the arguments,
  index by index; no finiteness of the inputs is used.

  The three frames: the two kernels' are the generated frame certificates; the reference's is its generated run
  with the result dropped. The ideal pass rewrote nothing, so the idealization claim is trivial.
-/
import proofs.«141364_j26912265076901_1_alg».proof.Defs
import proofs.«141364_j26912265076901_1_alg».proof.Proof.Gen.Kernel
import proofs.«141364_j26912265076901_1_alg».proof.Proof.Gen.Kernel.Skeleton
import proofs.«141364_j26912265076901_1_alg».proof.Proof.Gen.Kernel.Launch
import proofs.«141364_j26912265076901_1_alg».proof.Proof.Gen.Kernel.Points
import proofs.«141364_j26912265076901_1_alg».proof.Proof.Gen.Kernel.Frame
import proofs.«141364_j26912265076901_1_alg».proof.Proof.Gen.KernelIdeal
import proofs.«141364_j26912265076901_1_alg».proof.Proof.Gen.KernelIdeal.Skeleton
import proofs.«141364_j26912265076901_1_alg».proof.Proof.Gen.KernelIdeal.Launch
import proofs.«141364_j26912265076901_1_alg».proof.Proof.Gen.KernelIdeal.Points
import proofs.«141364_j26912265076901_1_alg».proof.Proof.Gen.KernelIdeal.Frame
import proofs.«141364_j26912265076901_1_alg».proof.Proof.Gen.ReferenceIdeal
import proofs.«141364_j26912265076901_1_alg».proof.Proof.Gen.Pre_finite_inputs
import proofs.«141364_j26912265076901_1_alg».proof.Proof.Gen.ReferenceIdeal.Run
import proofs.«141364_j26912265076901_1_alg».proof.Proof.Gen.ReferenceIdeal.Read
import proofs.«141364_j26912265076901_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the reference's result term of the argument arrays: the kernel by its run read boundary
    by boundary, the reference by its generated run; the two memories agree on the arguments. -/
theorem algebraic : Cert.algebraic_KernelIdeal_ReferenceIdeal := by
  intro m ρ m' ρ' _ hagree
  refine ⟨fun c => Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq]
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
